-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_784" .f32 0x3AA72F05#32 ((1 / 784 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x28x28 : Shape := ⟨4, ![32, 2048, 28, 28]⟩
abbrev S2048 : Shape := ⟨1, ![2048]⟩
abbrev S_ : Shape := ⟨0, ![]⟩

class Facts : Prop where
  bcast_S_S32x2048x28x28 : S_.BroadcastsInDim S32x2048x28x28 (![] : Fin 0 → Fin S32x2048x28x28.rank)
  reducesTo_S32x2048x28x28_S_d0_1_2_3 : S32x2048x28x28.ReducesTo [0, 1, 2, 3] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S32x2048x28x28 .f32) (main_arg1 : FVec F S2048 .f32) : IVec S_ 1 :=
  let main_v0 : FVec F S32x2048x28x28 .f32 := Host.absf main_arg0
  let main_cst : FVec F S_ .f32 := constant S_ .f32 0x7F800000#32
  let main_v1 : FVec F S32x2048x28x28 .f32 := broadcastInDim S32x2048x28x28 ![] bcast_S_S32x2048x28x28 main_cst
  let main_v2 : IVec S32x2048x28x28 1 := cmpf .olt main_v0 main_v1
  let main_c : IVec S_ 1 := constantI S_ 1 1#1
  let main_v3 : IVec S_ 1 := (fun x v => Host.reduce IntOp.andi x v reducesTo_S32x2048x28x28_S_d0_1_2_3 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S32x2048x28x28 : Shape := ⟨4, ![32, 2048, 28, 28]⟩
abbrev S2048 : Shape := ⟨1, ![2048]⟩
abbrev S32x2048x784 : Shape := ⟨3, ![32, 2048, 784]⟩
abbrev S32x1x2048 : Shape := ⟨3, ![32, 1, 2048]⟩
abbrev S1x512x784 : Shape := ⟨3, ![1, 512, 784]⟩
abbrev S512 : Shape := ⟨1, ![512]⟩
abbrev S1x1x512 : Shape := ⟨3, ![1, 1, 512]⟩
abbrev S512x784 : Shape := ⟨2, ![512, 784]⟩
abbrev S512x1 : Shape := ⟨2, ![512, 1]⟩
abbrev S1x512 : Shape := ⟨2, ![1, 512]⟩
abbrev S32x2048x1x1 : Shape := ⟨4, ![32, 2048, 1, 1]⟩

abbrev nBuf : Space → Nat
  | .hbm => 5
  | .vmem => 6
  | .smem => 0
  | _ => 0

abbrev bufTy : (tb : Table) → Fin (tcTables nBuf tb) → BufTy
  | .hbm, ⟨0, _⟩ => ⟨S32x2048x28x28, .f32⟩
  | .hbm, ⟨1, _⟩ => ⟨S2048, .f32⟩
  | .hbm, ⟨2, _⟩ => ⟨S32x2048x784, .f32⟩
  | .hbm, ⟨3, _⟩ => ⟨S32x1x2048, .f32⟩
  | .hbm, ⟨4, _⟩ => ⟨S32x2048x1x1, .f32⟩
  | .local _ .vmem, ⟨0, _⟩ => ⟨S1x512x784, .f32⟩
  | .local _ .vmem, ⟨1, _⟩ => ⟨S1x512x784, .f32⟩
  | .local _ .vmem, ⟨2, _⟩ => ⟨S512, .f32⟩
  | .local _ .vmem, ⟨3, _⟩ => ⟨S512, .f32⟩
  | .local _ .vmem, ⟨4, _⟩ => ⟨S1x1x512, .f32⟩
  | .local _ .vmem, ⟨5, _⟩ => ⟨S1x1x512, .f32⟩
  | _, _ => ⟨S32x2048x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S32x2048x28x28_S32x2048x784 : S32x2048x28x28.ShapeCasts S32x2048x784
  inb_S1x512x784_S1x512x784_0_0_0 : ∀ a, (![0, 0, 0] : Fin 3 → Nat) a + S1x512x784.size a ≤ S1x512x784.size a
  h_S1x512x784 : 0 < S1x512x784.numel
  shapeCasts_S1x512x784_S512x784 : S1x512x784.ShapeCasts S512x784
  inb_S512_S512_0 : ∀ a, (![0] : Fin 1 → Nat) a + S512.size a ≤ S512.size a
  h_S512 : 0 < S512.numel
  shapeCasts_S512_S512x1 : S512.ShapeCasts S512x1
  broadcasts_S512x1_S512x784 : S512x1.Broadcasts S512x784
  reduces_S512x784_S512 : S512x784.Reduces [1] S512
  transposes_S512x1_p1_0_S1x512 : S512x1.Transposes [1, 0] S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S32x1x2048_S32x2048x1x1 : S32x1x2048.ShapeCasts S32x2048x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x784.size a ≤ S32x2048x784.size a
  hwx0_0 : ∀ i : grid0.Coords, EltTy.bits .f32 = 32 ∨ (Rect.block (s := S32x2048x784) S1x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S2048.size a
  hwx0_1 : ∀ i : grid0.Coords, EltTy.bits .f32 = 32 ∨ (Rect.block (s := S2048) S512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x2048.size a
  hwx0_2 : ∀ i : grid0.Coords, EltTy.bits .f32 = 32 ∨ (Rect.block (s := S32x1x2048) S1x1x512.size (cc0_transform_2 i) (hinb0_2 i)).WholeWords (EltTy.packing .f32)

variable [Facts₀]

abbrev win0_0 : Pipeline.Window sig grid0 :=
  Pipeline.Window.ofSpec (Memref.whole main_v0) S1x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x28x28 : Shape := ⟨4, ![32, 2048, 28, 28]⟩
abbrev S2048 : Shape := ⟨1, ![2048]⟩
abbrev S1x2048x1x1 : Shape := ⟨4, ![1, 2048, 1, 1]⟩
abbrev S_ : Shape := ⟨0, ![]⟩
abbrev S32x2048 : Shape := ⟨2, ![32, 2048]⟩
abbrev S32x2048x1x1 : Shape := ⟨4, ![32, 2048, 1, 1]⟩

abbrev nBuf : Space → Nat
  | .hbm => 20
  | .vmem => 0
  | .smem => 0
  | _ => 0

abbrev bufTy : (tb : Table) → Fin (tcTables nBuf tb) → BufTy
  | .hbm, ⟨0, _⟩ => ⟨S32x2048x28x28, .f32⟩
  | .hbm, ⟨1, _⟩ => ⟨S2048, .f32⟩
  | .hbm, ⟨2, _⟩ => ⟨S1x2048x1x1, .f32⟩
  | .hbm, ⟨3, _⟩ => ⟨S_, .f32⟩
  | .hbm, ⟨4, _⟩ => ⟨S32x2048x28x28, .f32⟩
  | .hbm, ⟨5, _⟩ => ⟨S32x2048x28x28, .f32⟩
  | .hbm, ⟨6, _⟩ => ⟨S32x2048x28x28, .f32⟩
  | .hbm, ⟨7, _⟩ => ⟨S32x2048x28x28, .f32⟩
  | .hbm, ⟨8, _⟩ => ⟨S_, .f32⟩
  | .hbm, ⟨9, _⟩ => ⟨S32x2048, .f32⟩
  | .hbm, ⟨10, _⟩ => ⟨S32x2048x1x1, .f32⟩
  | .hbm, ⟨11, _⟩ => ⟨S_, .f32⟩
  | .hbm, ⟨12, _⟩ => ⟨S32x2048x1x1, .f32⟩
  | .hbm, ⟨13, _⟩ => ⟨S32x2048x1x1, .f32⟩
  | .hbm, ⟨14, _⟩ => ⟨S1x2048x1x1, .f32⟩
  | .hbm, ⟨15, _⟩ => ⟨S_, .f32⟩
  | .hbm, ⟨16, _⟩ => ⟨S1x2048x1x1, .f32⟩
  | .hbm, ⟨17, _⟩ => ⟨S1x2048x1x1, .f32⟩
  | .hbm, ⟨18, _⟩ => ⟨S32x2048x1x1, .f32⟩
  | .hbm, ⟨19, _⟩ => ⟨S32x2048x1x1, .f32⟩
  | _, _ => ⟨S32x2048x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S2048_S1x2048x1x1_1 : S2048.BroadcastsInDim S1x2048x1x1 (![1] : Fin 1 → Fin S1x2048x1x1.rank)
  bcast_S_S32x2048x28x28 : S_.BroadcastsInDim S32x2048x28x28 (![] : Fin 0 → Fin S32x2048x28x28.rank)
  bcast_S1x2048x1x1_S32x2048x28x28_0_1_2_3 : S1x2048x1x1.BroadcastsInDim S32x2048x28x28 (![0, 1, 2, 3] : Fin 4 → Fin S32x2048x28x28.rank)
  reducesTo_S32x2048x28x28_S32x2048_d2_3 : S32x2048x28x28.ReducesTo [2, 3] S32x2048
  h_S_ : 0 < S_.numel
  bcast_S32x2048_S32x2048x1x1_0_1 : S32x2048.BroadcastsInDim S32x2048x1x1 (![0, 1] : Fin 2 → Fin S32x2048x1x1.rank)
  bcast_S_S32x2048x1x1 : S_.BroadcastsInDim S32x2048x1x1 (![] : Fin 0 → Fin S32x2048x1x1.rank)
  bcast_S_S1x2048x1x1 : S_.BroadcastsInDim S1x2048x1x1 (![] : Fin 0 → Fin S1x2048x1x1.rank)
  bcast_S1x2048x1x1_S32x2048x1x1_0_1_2_3 : S1x2048x1x1.BroadcastsInDim S32x2048x1x1 (![0, 1, 2, 3] : Fin 4 → Fin S32x2048x1x1.rank)

variable [Facts₀]

class Facts : Prop extends Facts₀ where

variable [Facts]
-- ==== Proof.GemSpec.lean ====
/-
  Generalized-mean pooling of one channel's 784 entries with exponent `p`, in the two spellings the two programs use,
  as functions on the extended reals.  Both clamp every entry from below at the small positive constant `eps` and take
  the `p`-th power mean of the clamped entries, then its `1/p`-th power:
  * `viaLogExp` writes each power `a ^ q` as `exp (q * log a)` and the mean as the sum times the rational `1/784`;
  * `viaPow` uses the power function and divides the sum (started from zero) by `784`.
  The float literals are kept as their words; `GemLaw` evaluates them and proves the two spellings equal on real inputs.
-/
import Idealize.ShloMosaic.PureOps.Ideal

noncomputable section

namespace Cert.GemSpec

open Idealize.ShloMosaic

/-- The floor every entry is clamped at: the float word of `1e-6`. -/
def eps : EReal := Ideal.ofBits .f32 0x358637BD#32

/-- `exp ((1/p) * log ((∑ₖ exp (p * log (max (X k) eps))) * (1/784)))`. -/
def viaLogExp (p : EReal) (X : Fin 784 → EReal) : EReal :=
  Ideal.exp (Ideal.div (Ideal.ofBits .f32 0x3F800000#32) p
    * Ideal.log ((∑ k : Fin 784, Ideal.exp (p * Ideal.log (max (X k) eps))) * ((1 / 784 : ℝ) : EReal)))

/-- `((0 + ∑ₖ (max (X k) eps) ^ p) / 784) ^ (1/p)`. -/
def viaPow (p : EReal) (X : Fin 784 → EReal) : EReal :=
  Ideal.pow
    (Ideal.div (Ideal.ofBits .f32 0x00000000#32 + ∑ k : Fin 784, Ideal.pow (max (X k) eps) p)
      (Ideal.ofBits .f32 0x44440000#32))
    (Ideal.div (Ideal.ofBits .f32 0x3F800000#32) p)

end Cert.GemSpec

end
-- ==== Proof.LibRealPow.lean ====
/-
  Powers of positive reals on the extended reals.

  For a positive real `a` and a real `q`, both `exp (q * log a)` and the power `a ^ q`, computed on the extended reals
  (where `log` of a non-positive number and several corners of the power function are conventions), are the cast of the
  ONE real `Real.exp (q * Real.log a)`.  With them: the cast of a maximum and of a finite sum of reals, which carry such
  terms through a clamp and a sum.  Any extents, any index type.
-/
import Idealize.ShloMosaic.PureOps.Ideal
import Mathlib.Analysis.SpecialFunctions.Pow.Real

noncomputable section

namespace Cert.Bridge.RealPow

open Idealize.ShloMosaic

/-- The maximum of two reals, cast, is the maximum of the casts. -/
theorem coe_max' (x y : ℝ) : max (x : EReal) (y : EReal) = ((max x y : ℝ) : EReal) :=
  (EReal.coe_strictMono.monotone.map_max).symm

/-- The cast of a finite sum of reals is the sum of the casts. -/
theorem coe_sum' {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- For a positive real `a`, `exp (q * log a)` on the extended reals is the real `exp (q * log a)`. -/
theorem exp_mul_log_coe (q a : ℝ) (ha : 0 < a) :
    Ideal.exp ((q : EReal) * Ideal.log (a : EReal)) = ((Real.exp (q * Real.log a) : ℝ) : EReal) := by
  rw [Ideal.log_coe, if_neg (not_le.mpr ha), ← EReal.coe_mul, Ideal.exp_coe]

/-- For a positive real `a`, the power `a ^ q` on the extended reals is the real `exp (q * log a)`. -/
theorem pow_coe_pos (q a : ℝ) (ha : 0 < a) :
    Ideal.pow (a : EReal) (q : EReal) = ((Real.exp (q * Real.log a) : ℝ) : EReal) := by
  rw [Ideal.pow_coe_coe]
  congr 1
  show a ^ q = _
  rw [Real.rpow_def_of_pos ha, mul_comm]

end Cert.Bridge.RealPow

end
-- ==== Proof.GemLaw.lean ====
/-
  The two spellings of generalized-mean pooling agree on real inputs.
-/
import proofs.«175610_j25666724561287_2_alg».proof.Proof.GemSpec
import Idealize.ShloMosaic.PureOps.Ideal.Laws
import Mathlib.Analysis.SpecialFunctions.Pow.Real
import proofs.«175610_j25666724561287_2_alg».proof.Proof.LibRealPow

noncomputable section

namespace Cert.GemSpec

open Idealize.ShloMosaic Cert.Bridge.RealPow

/-- The word `0x3F800000` is the real `1`. -/
theorem ofBits_one : Ideal.ofBits .f32 0x3F800000#32 = ((1 : ℝ) : EReal) := by
  simp [Ideal.ofBits, Ideal.ieee, -EReal.coe_mul]; norm_num

/-- The word `0x44440000` is the real `784`. -/
theorem ofBits_784 : Ideal.ofBits .f32 0x44440000#32 = ((784 : ℝ) : EReal) := by
  simp [Ideal.ofBits, Ideal.ieee, -EReal.coe_mul]; norm_num

/-- The clamp floor is a positive real (a normal float with sign bit clear); its value is never needed. -/
theorem eps_pos : ∃ e : ℝ, 0 < e ∧ eps = (e : EReal) := by
  unfold eps
  simp [Ideal.ofBits, Ideal.ieee, -EReal.coe_mul]

/-- On real entries and a real exponent the log/exp spelling and the power spelling are one extended real.  (Every
    clamped entry is a positive real, so its power is `exp (p * log a)`; the mean is a positive real; for `p ≠ 0` the
    outer power is again `exp ((1/p) * log mean)`; for `p = 0` both means are `1`, the log/exp side is
    `exp (⊤ * 0) = 1` and the power side is `1 ^ ⊤ = 1`.) -/
theorem viaLogExp_eq_viaPow (p : ℝ) (X : Fin 784 → ℝ) :
    viaLogExp (p : EReal) (fun k => (X k : EReal)) = viaPow (p : EReal) (fun k => (X k : EReal)) := by
  -- every clamped entry `max (X k) e` is a positive real
  obtain ⟨e, he, heps⟩ := eps_pos
  have hapos : ∀ k, 0 < max (X k) e := fun k => lt_max_of_lt_right he
  have hmax : ∀ k, max ((X k : ℝ) : EReal) eps = ((max (X k) e : ℝ) : EReal) := by
    intro k; rw [heps, coe_max']
  have hSpos : 0 < ∑ k : Fin 784, Real.exp (p * Real.log (max (X k) e)) :=
    Finset.sum_pos (fun k _ => Real.exp_pos _) Finset.univ_nonempty
  -- both inner sums are the cast of one positive real sum `S = ∑ₖ exp (p * log (max (X k) e))`
  have hL : (∑ k : Fin 784, Ideal.exp ((p : EReal) * Ideal.log (max ((X k : ℝ) : EReal) eps)))
      = ((∑ k : Fin 784, Real.exp (p * Real.log (max (X k) e)) : ℝ) : EReal) := by
    rw [← coe_sum']
    refine Finset.sum_congr rfl (fun k _ => ?_)
    rw [hmax, exp_mul_log_coe _ _ (hapos k)]
  have hR : (∑ k : Fin 784, Ideal.pow (max ((X k : ℝ) : EReal) eps) (p : EReal))
      = ((∑ k : Fin 784, Real.exp (p * Real.log (max (X k) e)) : ℝ) : EReal) := by
    rw [← coe_sum']
    refine Finset.sum_congr rfl (fun k _ => ?_)
    rw [hmax, pow_coe_pos _ _ (hapos k)]
  obtain ⟨S, hS⟩ : ∃ S : ℝ, S = ∑ k : Fin 784, Real.exp (p * Real.log (max (X k) e)) := ⟨_, rfl⟩
  rw [← hS] at hSpos hL hR
  unfold viaLogExp viaPow
  simp only []
  rw [hL, hR, ofBits_one, ofBits_784, Ideal.ofBits_zero_f32, zero_add,
    Ideal.div_coe (by norm_num : (784 : ℝ) ≠ 0), ← EReal.coe_mul]
  -- both means are the cast of the positive real `S * (1/784)`
  have hM : 0 < S * (1 / 784) := by positivity
  by_cases hp : p = 0
  · -- `p = 0`: every term is `exp 0 = 1`, the mean is `1`, and `1 / 0 = ⊤`;
    -- `exp (⊤ * log 1) = exp 0 = 1 = 1 ^ ⊤`
    subst hp
    have hS1 : S * (1 / 784) = 1 := by
      rw [hS]; simp
    have hdiv : Ideal.div ((1 : ℝ) : EReal) ((0 : ℝ) : EReal) = ⊤ := by
      rw [Ideal.div, if_pos EReal.coe_zero, if_pos (by exact_mod_cast one_pos)]
    rw [hS1, hdiv, Ideal.log_coe, if_neg (by norm_num), Real.log_one, EReal.coe_zero, mul_zero,
      ← EReal.coe_zero, Ideal.exp_coe, Real.exp_zero, Ideal.pow_coe_top]
    simp
  · -- `p ≠ 0`: `1 / p` is a real, and both outer powers are the real `exp ((1/p) * log mean)`
    rw [Ideal.div_coe hp, ← EReal.coe_mul, one_mul, exp_mul_log_coe _ _ hM, pow_coe_pos _ _ hM]

end Cert.GemSpec

end
-- ==== Proof.Finite.lean ====
/-
  What the precondition says: every entry of both argument arrays is a real number.
-/
import proofs.«175610_j25666724561287_2_alg».proof.Pre_finite_inputs
import proofs.«175610_j25666724561287_2_alg».proof.Proof.Gen.Pre_finite_inputs
import Idealize.ShloMosaic.PureOps.Ideal
import Idealize.ShloMosaic.PureOps.Ideal.Laws
import Idealize.ShloMosaic.Lib.ReduceAll

noncomputable section

namespace Cert.Finite

open Idealize.ShloMosaic Cert.Pre_finite_inputs

/-- The rank-0 result shape has a single index. -/
instance : Subsingleton S_.Idx := ⟨fun _ _ => funext fun d => d.elim0⟩

/-- The bit pattern `0x7F800000` denotes `+∞`, the top of the extended reals. -/
theorem inf_eq_top : Ideal.ofBits .f32 0x7F800000#32 = (⊤ : EReal) := by
  simp [Ideal.ofBits, Ideal.ieee]

/-- The element step. If the comparison `|a| < +∞` answers `1`, where `|a|` is `max a (-a)`, then `a` is a real
    number: for `a = ⊤` the maximum is `⊤`, and for `a = ⊥` it is `-⊥ = ⊤` again, and `⊤ < ⊤` is false. -/
theorem real_of_abs_lt_inf (a : EReal)
    (h : Ideal.cmp .olt (max a (-a)) (Ideal.ofBits .f32 0x7F800000#32) = 1#1) : ∃ r : ℝ, a = (r : EReal) := by
  rw [inf_eq_top] at h
  unfold Ideal.cmp at h
  have hlt : max a (-a) < ⊤ := by
    by_contra hn
    simp [hn] at h
  induction a using EReal.rec with
  | bot => simp at hlt
  | top => simp at hlt
  | coe r => exact ⟨r, rfl⟩

/-- If the finiteness predicate answers `1` on two arrays read at the extended reals, every entry of each is a real. -/
theorem real_of_pre (x : FVec Ideal S32x2048x28x28 .f32) (p : FVec Ideal S2048 .f32)
    (h : Cert.Pre_finite_inputs.fn (F := Ideal) x p = fun _ => 1#1) :
    (∀ i, ∃ r : ℝ, x i = (r : EReal)) ∧ (∀ i, ∃ r : ℝ, p i = (r : EReal)) := by
  -- the predicate's one output bit, as the printed chain of operations
  have h0 := congrFun h (fun a => a.elim0)
  dsimp only [Cert.Pre_finite_inputs.fn] at h0
  -- the final `and` of the two conjunctions over all entries: both are `1`
  obtain ⟨hx, hp⟩ := IntOp.andi_eq_one.1 h0
  refine ⟨fun i => ?_, fun i => ?_⟩
  · -- a conjunction over every axis that is `1`: the compare bit is `1` at each index, where the broadcast constant reads as `+∞`
    exact real_of_abs_lt_inf (x i) (Host.reduce_andi_all _ _ _ _ _ hx i)
  · exact real_of_abs_lt_inf (p i) (Host.reduce_andi_all _ _ _ _ _ hp i)

end Cert.Finite

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Payload.lean ====
/-
  The kernel body's stored block, read at one entry.

  The body loads a `[1, 512, 784]` block of the activations (512 channels of one image, 784 positions each) and the
  512 exponents of those channels, and stores a `[1, 1, 512]` row.  Entry `q` of that row depends on channel `q`'s 784
  positions and on exponent `q` only: it is the generalized mean of the row in the log/exp spelling
  (`Cert.GemSpec.viaLogExp`).  The layout steps (a leading unit axis dropped, the exponents turned into a column and
  broadcast along the positions, the lane sum, the column transposed into a row) each read one operand entry.
-/
import proofs.«175610_j25666724561287_2_alg».proof.Proof.Gen.KernelIdeal.Skeleton
import proofs.«175610_j25666724561287_2_alg».proof.Proof.GemSpec
import proofs.«175610_j25666724561287_2_alg».proof.Proof.LibLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Bridge

open Idealize.ShloMosaic Idealize.ShloMosaic.ValueIdx Cert.KernelIdeal Cert.Bridge.Layout

/-- The named reciprocal is the rational `1/784`. -/
theorem inv784 : Named.named (F := Ideal) κ "inv_784" (φ := .f32) 0x3AA72F05#32 = ((1 / 784 : ℝ) : EReal) :=
  IdealRules.named_const.ideal_named_scalar _ _ _ _ rfl

/-- One clamped entry raised to its channel's exponent, as `exp (p * log (max x eps))`. -/
theorem powed_apply (x0 : FVec Ideal S1x512x784 .f32) (x1 : FVec Ideal S512 .f32)
    (h1 : S512.ShapeCasts S512x1) (h2 : S512x1.Broadcasts S512x784) (h3 : S1x512x784.ShapeCasts S512x784)
    (q : Fin 512) (k : Fin 784) :
    exp (mulf (broadcastTo S512x784 (shapeCast S512x1 x1 h1) h2)
      (log (maximumf (shapeCast S512x784 x0 h3) (broadcast S512x784 (Scalar.ofBits (F := Ideal) .f32 0x358637BD#32))))) (ix2 q k)
    = Ideal.exp (x1 (ix1 q) * Ideal.log (max (x0 (ix3 (0 : Fin 1) q k)) Cert.GemSpec.eps)) := by
  show Ideal.exp (broadcastTo S512x784 (shapeCast S512x1 x1 h1) h2 (ix2 q k)
      * Ideal.log (max (shapeCast S512x784 x0 h3 (ix2 q k)) (Ideal.ofBits .f32 0x358637BD#32))) = _
  rw [broadcastTo_a1_an_apply, shapeCast_a_a1_apply, shapeCast_1ab_ab_apply]
  rfl

/-- The lane sum of a `[512, 784]` array at row `q` is the sum of that row. -/
theorem rowsum_apply (v9 : FVec Ideal S512x784 .f32) (hr : S512x784.Reduces [1] S512) (q : Fin 512) :
    multiReduction .add [1] S512 v9 0x00000000#32 hr (.inl rfl) rfl (ix1 q) = ∑ k : Fin 784, v9 (ix2 q k) := by
  refine (Ideal.multiReduction_add_single v9 0x00000000#32 hr (.inl rfl) rfl (ix1 q)).trans ?_
  refine Finset.sum_congr rfl fun k _ => congrArg v9 ?_
  funext a
  match a with
  | ⟨0, _⟩ => exact Fin.ext rfl
  | ⟨1, _⟩ => exact Fin.ext rfl

/-- The column of results: `exp ((1/p) * log (rowsum * (1/784)))` at row `q`. -/
theorem col_apply (v9 : FVec Ideal S512x784 .f32) (x1 : FVec Ideal S512 .f32)
    (h1 h1' : S512.ShapeCasts S512x1) (hr : S512x784.Reduces [1] S512) (q : Fin 512) (v : Fin 1) :
    exp (mulf (divf (broadcast S512x1 (Scalar.ofBits (F := Ideal) .f32 0x3F800000#32)) (shapeCast S512x1 x1 h1))
      (log (mulf (shapeCast S512x1 (multiReduction .add [1] S512 v9 0x00000000#32 hr (.inl rfl) rfl) h1')
        (broadcast S512x1 (Named.named (F := Ideal) κ "inv_784" (φ := .f32) 0x3AA72F05#32))))) (ix2 q v)
    = Ideal.exp (Ideal.div (Ideal.ofBits .f32 0x3F800000#32) (x1 (ix1 q))
        * Ideal.log ((∑ k : Fin 784, v9 (ix2 q k)) * ((1 / 784 : ℝ) : EReal))) := by
  show Ideal.exp (Ideal.div (Ideal.ofBits .f32 0x3F800000#32) (shapeCast S512x1 x1 h1 (ix2 q v))
      * Ideal.log (shapeCast S512x1 (multiReduction .add [1] S512 v9 0x00000000#32 hr (.inl rfl) rfl) h1' (ix2 q v)
        * Named.named (F := Ideal) κ "inv_784" (φ := .f32) 0x3AA72F05#32)) = _
  rw [shapeCast_a_a1_apply, shapeCast_a_a1_apply, rowsum_apply, inv784]

/-- The stored row: the column transposed and given a leading unit axis. -/
theorem row_apply (v18 : FVec Ideal S512x1 .f32) (ht : S512x1.Transposes [1, 0] S1x512) (hc : S1x512.ShapeCasts S1x1x512)
    (u v : Fin 1) (q : Fin 512) :
    shapeCast S1x1x512 (transpose S1x512 [1, 0] v18 ht) hc (ix3 u v q) = v18 (ix2 q v) :=
  (shapeCast_ab_1ab_apply _ hc u v q).trans (transpose_ix2_apply v18 ht v q)

/-- THE BODY'S BLOCK AT AN ENTRY: entry `q` of the stored row is the generalized mean, in the log/exp spelling, of
    channel `q`'s 784 loaded entries with the loaded exponent `q`. -/
theorem pay_apply (x0 : Vec Ideal S1x512x784 .f32) (x1 : Vec Ideal S512 .f32) (u v : Fin 1) (q : Fin 512) :
    Gen.k0_pay1 (F := Ideal) x0 x1 (ix3 u v q)
      = Cert.GemSpec.viaLogExp (x1 (ix1 q)) (fun k => x0 (ix3 (0 : Fin 1) q k)) := by
  unfold Gen.k0_pay1
  refine (row_apply _ _ _ u v q).trans ?_
  refine (col_apply _ x1 _ _ _ q v).trans ?_
  unfold Cert.GemSpec.viaLogExp
  refine congrArg (fun s => Ideal.exp (Ideal.div (Ideal.ofBits .f32 0x3F800000#32) (x1 (ix1 q))
      * Ideal.log (s * ((1 / 784 : ℝ) : EReal)))) ?_
  exact Finset.sum_congr rfl fun k _ => powed_apply x0 x1 _ _ _ q k

end Cert.KernelIdeal.Bridge

end
-- ==== Proof.Final.lean ====
/-
  From blocks to the array.

  The grid has 32 × 4 points; point `(b, g)` stages image `b`'s channels `512 g … 512 g + 511` (all 784 positions) and
  those channels' exponents, and writes back the `[1, 1, 512]` row of their generalized means into row `b`, columns
  `512 g …` of the `[32, 1, 2048]` result.  So every block written back is the restriction of ONE function of the two
  staged arrays (`pooled`), the blocks cover the result, and the result array ends as that function.
-/
import proofs.«175610_j25666724561287_2_alg».proof.Proof.Gen.KernelIdeal.Frame
import proofs.«175610_j25666724561287_2_alg».proof.Proof.Payload
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The result rows as ONE function of the staged activations `[32, 2048, 784]` and exponents `[2048]`: entry
    `(b, 0, ch)` is the generalized mean of image `b`, channel `ch` over its 784 positions with exponent `ch`. -/
def pooled (a0 : S32x2048x784.Idx → EReal) (a1 : S2048.Idx → EReal) : S32x1x2048.Idx → EReal := fun i =>
  Cert.GemSpec.viaLogExp (a1 (ix1 (⟨(i 2).val, (i 2).isLt⟩ : Fin 2048)))
    (fun k => a0 (ix3 (⟨(i 0).val, (i 0).isLt⟩ : Fin 32) (⟨(i 2).val, (i 2).isLt⟩ : Fin 2048) k))

theorem zero3 : (![0, 0, 0] : Fin 3 → Nat) = fun _ => 0 := funext fun a => by fin_cases a <;> rfl
theorem zero1 : (![0] : Fin 1 → Nat) = fun _ => 0 := funext fun a => by fin_cases a <;> rfl

/-- The body's block at an entry, the entry given as an index of the block's shape. -/
theorem pay_at (x0 : Vec Ideal S1x512x784 .f32) (x1 : Vec Ideal S512 .f32) (j : S1x1x512.Idx) :
    Gen.k0_pay1 (F := Ideal) x0 x1 j
      = Cert.GemSpec.viaLogExp (x1 (ix1 (⟨(j 2).val, (j 2).isLt⟩ : Fin 512)))
          (fun k => x0 (ix3 (0 : Fin 1) (⟨(j 2).val, (j 2).isLt⟩ : Fin 512) k)) := by
  obtain ⟨u, v, q, rfl⟩ : ∃ (u v : Fin 1) (q : Fin 512), j = ix3 u v q := ⟨j 0, j 1, j 2, eq_ix3 j⟩
  exact pay_apply x0 x1 u v q

/-- How the three windows move over the grid: the activations' block follows the result's row and column block, the
    exponents' block follows its column block. -/
theorem idx_facts : ∀ t : Fin cfg0.N,
    win0_0.index t (0 : Fin 3) = win0_2.index t (0 : Fin 3)
    ∧ win0_0.index t (1 : Fin 3) = win0_2.index t (2 : Fin 3)
    ∧ win0_0.index t (2 : Fin 3) = 0
    ∧ win0_1.index t (0 : Fin 1) = win0_2.index t (2 : Fin 3)
    ∧ win0_2.index t (1 : Fin 3) = 0
    ∧ win0_2.index t (0 : Fin 3) ≤ 31 ∧ win0_2.index t (2 : Fin 3) ≤ 3 :=
  (by decide +kernel : ∀ t : Fin grid0.N, _)

/-- Every (row, column block) of the result is some point's. -/
theorem idx_onto : ∀ (q0 : Fin 32) (q2 : Fin 4), ∃ t : Fin cfg0.N, win0_2.index t = ![q0.val, 0, q2.val] :=
  (by decide +kernel : ∀ (q0 : Fin 32) (q2 : Fin 4), ∃ t : Fin grid0.N, win0_2.index t = ![q0.val, 0, q2.val])

/-- The exponents' block at a point, read where the array index says. -/
theorem read1 (c : Dev nD) (t : Fin cfg0.N) (y : S512.Idx) (i : S2048.Idx)
    (h0 : (i 0).val = win0_1.index t (0 : Fin 1) * 512 + 1 * (y 0).val) :
    iblk m c 1 t y = V m c main_arg1 i := by
  show V m c main_arg1 (((cfg0.win 1).blk t).view.emb y) = V m c main_arg1 i
  refine congrArg (V m c main_arg1) (funext fun a => Fin.ext ?_)
  match a with
  | ⟨0, _⟩ => exact h0.symm

/-- The activations' block at a point, read where the array index says. -/
theorem read0 (c : Dev nD) (t : Fin cfg0.N) (y : S1x512x784.Idx) (i : S32x2048x784.Idx)
    (h0 : (i 0).val = win0_0.index t (0 : Fin 3) * 1 + 1 * (y 0).val)
    (h1 : (i 1).val = win0_0.index t (1 : Fin 3) * 512 + 1 * (y 1).val)
    (h2 : (i 2).val = win0_0.index t (2 : Fin 3) * 784 + 1 * (y 2).val) :
    iblk m c 0 t y = V m c main_v0 i := by
  show V m c main_v0 (((cfg0.win 0).blk t).view.emb y) = V m c main_v0 i
  refine congrArg (V m c main_v0) (funext fun a => Fin.ext ?_)
  match a with
  | ⟨0, _⟩ => exact h0.symm
  | ⟨1, _⟩ => exact h1.symm
  | ⟨2, _⟩ => exact h2.symm

/-- WHAT POINT `t` WRITES BACK is block `t` of `pooled` of the two staged arrays. -/
theorem flushed_eq (c : Dev nD) (t : Fin cfg0.N) :
    (dats m 0 c).flushed 2 t
      = ((cfg0.win 2).blk t).view.read (Elt Ideal) (pooled (V m c main_v0) (V m c main_arg1)) := by
  show (cfg0.win 2).cut (grid0.coords t) ((dats m 0 c).after 2 t) = _
  rw [after0_2]
  unfold out0_2
  rw [View.canon_unit_zero zero3]
  simp only [View.ld_unit_zero (S := S1x512x784) zero3, View.ld_unit_zero (S := S512) zero1]
  obtain ⟨e0, e1, e2, e3, e4, e5, e6⟩ := idx_facts t
  funext j
  show Gen.k0_pay1 (iblk m c 0 t) (iblk m c 1 t) j
    = pooled (V m c main_v0) (V m c main_arg1) (((cfg0.win 2).blk t).view.emb j)
  refine (pay_at _ _ j).trans ?_
  unfold pooled
  have hj0 : (j 0).val < 1 := (j 0).isLt
  have hj2 : (j 2).val < 512 := (j 2).isLt
  refine congrArg₂ Cert.GemSpec.viaLogExp (read1 m c t _ _ ?_) (funext fun k => read0 m c t _ _ ?_ ?_ ?_)
  · show win0_2.index t (2 : Fin 3) * 512 + 1 * (j 2).val = win0_1.index t (0 : Fin 1) * 512 + 1 * (j 2).val
    omega
  · show win0_2.index t (0 : Fin 3) * 1 + 1 * (j 0).val = win0_0.index t (0 : Fin 3) * 1 + 1 * 0
    omega
  · show win0_2.index t (2 : Fin 3) * 512 + 1 * (j 2).val = win0_0.index t (1 : Fin 3) * 512 + 1 * (j 2).val
    omega
  · show k.val = win0_0.index t (2 : Fin 3) * 784 + 1 * k.val
    omega

/-- An index of the result is in point `t`'s block iff each coordinate is in the block's range on its axis. -/
theorem mem_blk (t : Fin cfg0.N) (i : S32x1x2048.Idx) :
    i ∈ ((cfg0.win 2).blk t).view.set ↔ ∀ a : Fin 3, win0_2.index t a * S1x1x512.size a ≤ (i a).val
      ∧ (i a).val < win0_2.index t a * S1x1x512.size a + S1x1x512.size a := by
  show i ∈ ((View.whole main_v1).slice (win0_2.rect t)).set ↔ _
  rw [View.set_slice_whole, Rect.mem_set_unit]
  exact Iff.rfl

/-- The blocks cover the result: entry `(b, 0, ch)` is in the block of the point with row `b` and column block `ch / 512`. -/
theorem cover (i : S32x1x2048.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 2048 := (i 2).isLt
  obtain ⟨t, ht⟩ := idx_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 512 ≤ (i 2).val ∧ (i 2).val < win0_2.index t (2 : Fin 3) * 512 + 512
    omega

/-- THE RESULT ROWS after the region: `pooled` of the two staged arrays. -/
theorem final (c : Dev nD) :
    (dats m 0 c).arrAt 2 cfg0.N = pooled (V m c main_v0) (V m c main_arg1) :=
  (dats m 0 c).arrAt_eq_of_cover 2 _ (fun t _ => flushed_eq m c t) (cover)

end Cert.KernelIdeal.Bridge

end
-- ==== Proof.Plane.lean ====
/-
  The 784 positions of one image plane, listed row-major.
-/
import Idealize.ShloMosaic.Lib.ValueIdx

namespace Cert.GemSpec

open Idealize.ShloMosaic Idealize.ShloMosaic.ValueIdx

/-- Position `k` (row-major, `k = 28 h + w`) of the 28 × 28 plane of image `b`, channel `ch`, as an index of the
    `[32, 2048, 28, 28]` activations. -/
def plane (b : Fin 32) (ch : Fin 2048) (k : Fin 784) : (⟨4, ![32, 2048, 28, 28]⟩ : Shape).Idx :=
  ix4 b ch (⟨k.val / 28, by have := k.isLt; omega⟩ : Fin 28) (⟨k.val % 28, by omega⟩ : Fin 28)

end Cert.GemSpec
-- ==== Proof.KernelRun.lean ====
/-
  The kernel program's run, with its result named.

  Around the region the program merges the two position axes of the activations (`[32, 2048, 28, 28]` to
  `[32, 2048, 784]`, row-major, so merged position `k` is plane position `(k / 28, k % 28)`) and afterwards spreads the
  `[32, 1, 2048]` rows into `[32, 2048, 1, 1]` (entry `(b, ch, 0, 0)` is row entry `(b, 0, ch)`).  Reading both reshapes
  at an index turns the region's result (`pooled`) into `kernelOut`: the generalized mean, in the log/exp spelling, of each
  image plane with its channel's exponent.
-/
import proofs.«175610_j25666724561287_2_alg».proof.Proof.Final
import proofs.«175610_j25666724561287_2_alg».proof.Proof.Plane
import Idealize.ShloMosaic.Lib.StableHlo.Run

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Idealize.ShloMosaic.StableHlo
open Cert.GemSpec (plane)

variable (m : (ℓ : Loc nD τ sig) → Buf (Elt Ideal) ℓ) (ρ : Dev nD → PrngReg)

/-- The kernel program's result as ONE function of its two argument arrays. -/
def kernelOut (x : S32x2048x28x28.Idx → EReal) (p : S2048.Idx → EReal) : S32x2048x1x1.Idx → EReal := fun i =>
  Cert.GemSpec.viaLogExp (p (ix1 (⟨(i 1).val, (i 1).isLt⟩ : Fin 2048)))
    (fun k => x (plane (⟨(i 0).val, (i 0).isLt⟩ : Fin 32) (⟨(i 1).val, (i 1).isLt⟩ : Fin 2048) k))

/-- The activations with their position axes merged read, at `(b, ch, k)`, plane position `k`. -/
theorem merged_apply (x : S32x2048x28x28.Idx → EReal) (h : S32x2048x28x28.ShapeCasts S32x2048x784)
    (b : Fin 32) (ch : Fin 2048) (k : Fin 784) :
    shapeCast S32x2048x784 x h (ix3 b ch k) = x (plane b ch k) :=
  shapeCast_apply x h _ _ (by
    have hk : k.val < 784 := k.isLt
    rw [Shape.rowMajor_val_four, Shape.rowMajor_val_three]
    show ((b.val * 2048 + ch.val) * 28 + k.val / 28) * 28 + k.val % 28 = (b.val * 2048 + ch.val) * 784 + k.val
    omega)

/-- The rows spread into `[32, 2048, 1, 1]` read, at `(b, ch, 0, 0)`, row entry `(b, 0, ch)`. -/
theorem spread_apply (y : S32x1x2048.Idx → EReal) (h : S32x1x2048.ShapeCasts S32x2048x1x1)
    (b : Fin 32) (ch : Fin 2048) (u v : Fin 1) :
    shapeCast S32x2048x1x1 y h (ix4 b ch u v) = y (ix3 b (0 : Fin 1) ch) :=
  shapeCast_apply y h _ _ (by
    have hu : u.val = 0 := by omega
    have hv : v.val = 0 := by omega
    rw [Shape.rowMajor_val_four, Shape.rowMajor_val_three]
    show (b.val * 1 + 0) * 2048 + ch.val = ((b.val * 2048 + ch.val) * 1 + u.val) * 1 + v.val
    omega)

/-- The region finds the merged activations in its first window's array. -/
theorem head (c : Dev nD) :
    (V m c main_v0 : S32x2048x784.Idx → EReal)
      = shapeCast S32x2048x784 (m ((c : Thread nD τ).loc main_arg0)) shapeCasts_S32x2048x28x28_S32x2048x784 := by
  show StableHlo.after hostOps0 (fun b => m (c, b)) (Proc.devRef .tc main_v0) = _
  after_results
  rfl

/-- THE PROGRAM'S RESULT: what the line after the region leaves in `main_v2`. -/
theorem tail (c : Dev nD) :
    (Pipeline.afterTail₀ cfgs (dats m) 0 (V0 m) [hostOps1] c main_v2 : S32x2048x1x1.Idx → EReal)
      = kernelOut (m ((c : Thread nD τ).loc main_arg0)) (m ((c : Thread nD τ).loc main_arg1)) := by
  have e : (Pipeline.afterTail₀ cfgs (dats m) 0 (V0 m) [hostOps1] c main_v2 : S32x2048x1x1.Idx → EReal)
      = shapeCast S32x2048x1x1 (pooled (V m c main_v0) (V m c main_arg1)) shapeCasts_S32x1x2048_S32x2048x1x1 := by
    unfold Pipeline.afterTail₀
    show StableHlo.after hostOps1 _ (Proc.devRef .tc main_v2) = _
    after_results
    rw [Pipeline.withArrays_arr spec0 launch0.win.arr_inj c _ _ 2, final m c]
    rfl
  rw [e]
  funext i
  obtain ⟨b, ch, u, v, rfl⟩ : ∃ (b : Fin 32) (ch : Fin 2048) (u v : Fin 1), i = ix4 b ch u v :=
    ⟨i 0, i 1, i 2, i 3, eq_ix4 i⟩
  rw [spread_apply]
  unfold pooled kernelOut
  rw [head m c, V_main_arg1 m c]
  refine congrArg (Cert.GemSpec.viaLogExp (m ((c : Thread nD τ).loc main_arg1) (ix1 ch))) (funext fun k => ?_)
  exact merged_apply _ _ b ch k

/-- THE RUN: every weakly fair execution of the kernel program terminates with the result at `kernelOut` of the
    argument arrays, and those unchanged. -/
theorem run : θ_run defs (onTc (τ := τ) (main (F := Ideal))) ⟨m, fun _ => 0, ρ⟩ (fun r => ∀ c : Dev nD,
      r.2.mem ((c.tc : Thread nD τ).loc main_v2)
        = kernelOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (tail m c),
      ((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c)))⟩)
    (run_main m ρ)

end Cert.KernelIdeal.Bridge

end
-- ==== Proof.RefRead.lean ====
/-
  The reference's result, read at one entry.

  Entry `(b, ch, 0, 0)` of the reference's result is the generalized mean, in the power spelling
  (`Cert.GemSpec.viaPow`), of the 28 × 28 plane of image `b`, channel `ch`, with exponent `ch`.  The plane's 784
  positions are listed row-major (`plane`), which is the order the kernel's merged position axis uses; the host's sum
  over the two position axes is a sum over that list, because the indices that drop to `(b, ch)` are exactly the
  plane's.
-/
import proofs.«175610_j25666724561287_2_alg».proof.Proof.Gen.ReferenceIdeal.Read
import proofs.«175610_j25666724561287_2_alg».proof.Proof.GemSpec
import proofs.«175610_j25666724561287_2_alg».proof.Proof.Plane
import Idealize.ShloMosaic.Lib.ValueIdx
import Idealize.ShloMosaic.PureOps.Ideal.Laws
import Idealize.ShloMosaic.PureOps.Reduce

noncomputable section

namespace Cert.ReferenceIdeal.Bridge

open Idealize.ShloMosaic Idealize.ShloMosaic.ValueIdx Cert.ReferenceIdeal Cert.ReferenceIdeal.Read
open Cert.GemSpec (plane)

/-- The indices of the `[32, 2048, 28, 28]` array that drop to `(b, ch)` when the two position axes are removed are the
    784 positions of that plane, so a sum over them is the sum over the plane's list. -/
theorem plane_sum (hR : S32x2048x28x28.ReducesTo [2, 3] S32x2048) (f : S32x2048x28x28.Idx → EReal)
    (b : Fin 32) (ch : Fin 2048) [DecidablePred fun i : S32x2048x28x28.Idx => hR.drop i = ix2 b ch] :
    ∑ i ∈ Finset.univ.filter (fun i : S32x2048x28x28.Idx => hR.drop i = ix2 b ch), f i
      = ∑ k : Fin 784, f (plane b ch k) := by
  have d0 : ∀ i : S32x2048x28x28.Idx, (hR.drop i (0 : Fin 2) : Nat) = (i 0).val := fun i =>
    Shape.ReducesTo.drop_apply_val_of_eq hR i (0 : Fin 2) (0 : Fin 4)
  have d1 : ∀ i : S32x2048x28x28.Idx, (hR.drop i (1 : Fin 2) : Nat) = (i 1).val := fun i =>
    Shape.ReducesTo.drop_apply_val_of_eq hR i (1 : Fin 2) (1 : Fin 4)
  symm
  refine Finset.sum_bij' (fun k _ => plane b ch k)
    (fun i _ => (⟨(i 2).val * 28 + (i 3).val, by
      have h2 : (i 2).val < 28 := (i 2).isLt
      have h3 : (i 3).val < 28 := (i 3).isLt
      omega⟩ : Fin 784)) ?_ ?_ ?_ ?_ ?_
  · intro k _
    refine Finset.mem_filter.2 ⟨Finset.mem_univ _, funext fun a => Fin.ext ?_⟩
    match a with
    | ⟨0, _⟩ => exact (d0 (plane b ch k)).trans rfl
    | ⟨1, _⟩ => exact (d1 (plane b ch k)).trans rfl
  · intro i _; exact Finset.mem_univ _
  · intro k _
    refine Fin.ext ?_
    show k.val / 28 * 28 + k.val % 28 = k.val
    omega
  · intro i hi
    have hd := (Finset.mem_filter.1 hi).2
    have h0 : (i 0).val = b.val := (d0 i).symm.trans (congrArg (fun j : S32x2048.Idx => (j 0).val) hd)
    have h1 : (i 1).val = ch.val := (d1 i).symm.trans (congrArg (fun j : S32x2048.Idx => (j 1).val) hd)
    have h2 : (i 2).val < 28 := (i 2).isLt
    have h3 : (i 3).val < 28 := (i 3).isLt
    funext a
    refine Fin.ext ?_
    match a with
    | ⟨0, _⟩ => exact h0.symm
    | ⟨1, _⟩ => exact h1.symm
    | ⟨2, _⟩ =>
      show ((i 2).val * 28 + (i 3).val) / 28 = (i 2).val
      omega
    | ⟨3, _⟩ =>
      show ((i 2).val * 28 + (i 3).val) % 28 = (i 3).val
      omega
  · intro k _; rfl

/-- The host's sum of the powered plane, at `(b, ch)`. -/
theorem sum_apply (x0 : FVec Ideal S32x2048x28x28 .f32) (x1 : FVec Ideal S2048 .f32) (b : Fin 32) (ch : Fin 2048) :
    val_main_v5 (F := Ideal) x0 x1 (ix2 b ch)
      = Ideal.ofBits .f32 0x00000000#32
        + ∑ k : Fin 784, Ideal.pow (max (x0 (plane b ch k)) Cert.GemSpec.eps) (x1 (ix1 ch)) := by
  unfold val_main_v5
  show Ideal.ofBits .f32 0x00000000#32
      + ∑ i ∈ Finset.univ.filter (fun i : S32x2048x28x28.Idx => Shape.ReducesTo.drop _ i = ix2 b ch),
          val_main_v4 (F := Ideal) x0 x1 i = _
  rw [plane_sum]
  refine congrArg (Ideal.ofBits .f32 0x00000000#32 + ·) (Finset.sum_congr rfl fun k _ => ?_)
  rw [val_main_v4_apply, val_main_v2_apply, val_main_v3_apply, val_main_v0_apply, val_main_v1_apply,
    val_main_cst_apply]
  show Ideal.pow (max (x0 (plane b ch k)) (Ideal.ofBits .f32 0x358637BD#32))
      (x1 (idx_main_v0 (idx_main_v3 (plane b ch k)))) = _
  refine congrArg (fun j => Ideal.pow (max (x0 (plane b ch k)) Cert.GemSpec.eps) (x1 j)) ?_
  funext a
  match a with
  | ⟨0, _⟩ => rfl

/-- THE REFERENCE AT AN ENTRY: entry `(b, ch, 0, 0)` is the generalized mean of the plane in the power spelling. -/
theorem ref_apply (x0 : FVec Ideal S32x2048x28x28 .f32) (x1 : FVec Ideal S2048 .f32)
    (b : Fin 32) (ch : Fin 2048) (u v : Fin 1) :
    val_main_v13 (F := Ideal) x0 x1 (ix4 b ch u v)
      = Cert.GemSpec.viaPow (x1 (ix1 ch)) (fun k => x0 (plane b ch k)) := by
  have e6 : idx_main_v6 (ix4 b ch u v) = ix2 b ch := by
    funext a
    match a with
    | ⟨0, _⟩ => rfl
    | ⟨1, _⟩ => rfl
  have e9 : idx_main_v9 (idx_main_v12 (ix4 b ch u v)) = ix1 ch := by
    funext a
    match a with
    | ⟨0, _⟩ => rfl
  rw [val_main_v13_apply, val_main_v8_apply, val_main_v6_apply, val_main_v7_apply, val_main_cst_1_apply,
    val_main_v12_apply, val_main_v11_apply, val_main_v10_apply, val_main_cst_2_apply, val_main_v9_apply,
    e6, e9, sum_apply]
  rfl

end Cert.ReferenceIdeal.Bridge

end
-- ==== Proof.lean ====
/-
  Generalized-mean pooling: `out[b, ch] = (mean over the 28 × 28 plane of max(x, eps) ^ p[ch]) ^ (1 / p[ch])`.

  The kernel computes every power `a ^ q` as `exp (q * log a)` and the mean as the plane's sum times the constant
  `1/784`; the reference uses the power function twice and divides the sum by `784`.  On the extended reals, for real
  entries and real exponents, the two are one function:
  * every clamped entry `a = max(x, eps)` is a positive real, where `a ^ p = exp (p * log a)`;
  * the plane's sum is therefore one positive real on both sides, and so is its mean;
  * for `p ≠ 0` the outer power of the positive mean is again `exp ((1/p) * log mean)`;
  * for `p = 0` every term is `1`, the mean is `1`, `1/p` is `+∞` on both sides, the kernel's `exp (+∞ * log 1)`
    is `exp 0 = 1` and the reference's `1 ^ (+∞)` is `1`.
  Finiteness of the inputs is what makes every entry and exponent a real, and is used exactly there.

  The modules: `GemSpec` (the two spellings), `GemLaw` (they agree on reals), `Finite` (the precondition gives reals),
  `Payload` (the kernel body's stored row at an entry), `Final` (the blocks written back tile the result rows),
  `KernelRun` (the two reshapes around the region; the kernel program's run with its result named), `RefRead` (the
  reference's result at an entry; its two-axis sum as the sum over a plane's row-major list).  Below: the three frames,
  the named constant's statement, and the two runs side by side.
-/
import proofs.«175610_j25666724561287_2_alg».proof.Defs
import proofs.«175610_j25666724561287_2_alg».proof.Proof.Gen.Kernel
import proofs.«175610_j25666724561287_2_alg».proof.Proof.Gen.Kernel.Skeleton
import proofs.«175610_j25666724561287_2_alg».proof.Proof.Gen.Kernel.Launch
import proofs.«175610_j25666724561287_2_alg».proof.Proof.Gen.Kernel.Points
import proofs.«175610_j25666724561287_2_alg».proof.Proof.Gen.Kernel.Frame
import proofs.«175610_j25666724561287_2_alg».proof.Proof.Gen.KernelIdeal
import proofs.«175610_j25666724561287_2_alg».proof.Proof.Gen.KernelIdeal.Skeleton
import proofs.«175610_j25666724561287_2_alg».proof.Proof.Gen.KernelIdeal.Launch
import proofs.«175610_j25666724561287_2_alg».proof.Proof.Gen.KernelIdeal.Points
import proofs.«175610_j25666724561287_2_alg».proof.Proof.Gen.KernelIdeal.Frame
import proofs.«175610_j25666724561287_2_alg».proof.Proof.Gen.ReferenceIdeal
import proofs.«175610_j25666724561287_2_alg».proof.Proof.Gen.Pre_finite_inputs
import proofs.«175610_j25666724561287_2_alg».proof.Proof.Gen.ReferenceIdeal.Run
import proofs.«175610_j25666724561287_2_alg».proof.Proof.Gen.ReferenceIdeal.Read
import proofs.«175610_j25666724561287_2_alg».proof.Proof.GemLaw
import proofs.«175610_j25666724561287_2_alg».proof.Proof.Finite
import proofs.«175610_j25666724561287_2_alg».proof.Proof.KernelRun
import proofs.«175610_j25666724561287_2_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the kernel's mean factor stands for the rational `1/784`. -/
theorem preserves : Cert.preserves_Kernel_KernelIdeal :=
  IdealRules.named_const.statement Cert.KernelIdeal.κ "inv_784" .f32 0x3AA72F05#32 ((1 / 784 : ℝ) : EReal) rfl

/-- On arrays of reals the reference's result is the kernel program's: entry by entry the power spelling of a plane's
    generalized mean against its log/exp spelling. -/
theorem result_eq (x : Cert.ReferenceIdeal.S32x2048x28x28.Idx → EReal) (p : Cert.ReferenceIdeal.S2048.Idx → EReal)
    (hx : ∀ i, ∃ r : ℝ, x i = (r : EReal)) (hp : ∀ i, ∃ r : ℝ, p i = (r : EReal)) :
    Cert.ReferenceIdeal.Read.val_main_v13 (F := Ideal) x p = Cert.KernelIdeal.Bridge.kernelOut x p := by
  funext i
  obtain ⟨b, ch, u, v, rfl⟩ : ∃ (b : Fin 32) (ch : Fin 2048) (u v : Fin 1), i = ix4 b ch u v :=
    ⟨i 0, i 1, i 2, i 3, eq_ix4 i⟩
  rw [Cert.ReferenceIdeal.Bridge.ref_apply]
  obtain ⟨r, hr⟩ := hp (ix1 ch)
  choose X hX using fun k => hx (Cert.GemSpec.plane b ch k)
  show Cert.GemSpec.viaPow (p (ix1 ch)) (fun k => x (Cert.GemSpec.plane b ch k))
    = Cert.GemSpec.viaLogExp (p (ix1 ch)) (fun k => x (Cert.GemSpec.plane b ch k))
  rw [hr, funext hX]
  exact (Cert.GemSpec.viaLogExp_eq_viaPow r X).symm

/-- The two idealized programs, run from memories agreeing on the arguments, end with the same result: the kernel
    program's run names it, the reference's run is read entry by entry, and finiteness of the arguments joins them. -/
theorem algebraic : Cert.algebraic_KernelIdeal_ReferenceIdeal := by
  intro m ρ m' ρ' hpre hagree
  refine ⟨fun c => Cert.KernelIdeal.Bridge.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hp⟩ := Cert.Finite.real_of_pre _ _ (hpre c)
  rw [Cert.ReferenceIdeal.Read.val_main_v13_eq, (hagree c).1, (hagree c).2]
  exact result_eq _ _ hx hp

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
